-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S2x128 : Shape := ⟨2, ![2, 128]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S2x128 : S_.BroadcastsInDim S2x128 (![] : Fin 0 → Fin S2x128.rank)
  reducesTo_S2x128_S_d0_1 : S2x128.ReducesTo [0, 1] S_
  bcast_S_S2 : S_.BroadcastsInDim S2 (![] : Fin 0 → Fin S2.rank)
  reducesTo_S2_S_d0 : S2.ReducesTo [0] S_

variable [Facts]

def fn {F : FTy → Type} [FloatOps F] (main_arg0 : FVec F S100000x128 .f32) (main_arg1 : IVec S2x1600000 32) (main_arg2 : FVec F S2x128 .f32) (main_arg3 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S2x128 .f32 := Host.absf main_arg2
  let main_cst_0 : FVec F S_ .f32 := constant S_ .f32 0x7F800000#32
  let main_v5 : FVec F S2x128 .f32 := broadcastInDim S2x128 ![] bcast_S_S2x128 main_cst_0
  let main_v6 : IVec S2x128 1 := cmpf .olt main_v4 main_v5
  let main_c_1 : IVec S_ 1 := constantI S_ 1 1#1
  let main_v7 : IVec S_ 1 := (fun x v => Host.reduce IntOp.andi x v reducesTo_S2x128_S_d0_1 h_S_) main_v6 main_c_1
  let main_v8 : IVec S_ 1 := andi main_v3 main_v7
  let main_v9 : FVec F S2 .f32 := Host.absf main_arg3
  let main_cst_2 : FVec F S_ .f32 := constant S_ .f32 0x7F800000#32
  let main_v10 : FVec F S2 .f32 := broadcastInDim S2 ![] bcast_S_S2 main_cst_2
  let main_v11 : IVec S2 1 := cmpf .olt main_v9 main_v10
  let main_c_3 : IVec S_ 1 := constantI S_ 1 1#1
  let main_v12 : IVec S_ 1 := (fun x v => Host.reduce IntOp.andi x v reducesTo_S2_S_d0 h_S_) main_v11 main_c_3
  let main_v13 : IVec S_ 1 := andi main_v8 main_v12
  main_v13
-- ==== Kernel.lean ====
abbrev S100000x128 : Shape := ⟨2, ![100000, 128]⟩
abbrev S2x1600000 : Shape := ⟨2, ![2, 1600000]⟩
abbrev S2x128 : Shape := ⟨2, ![2, 128]⟩
abbrev S2 : Shape := ⟨1, ![2]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S100000x2 : Shape := ⟨2, ![100000, 2]⟩
abbrev S10000x128 : Shape := ⟨2, ![10000, 128]⟩
abbrev S10000x2 : Shape := ⟨2, ![10000, 2]⟩
abbrev S1x2 : Shape := ⟨2, ![1, 2]⟩
abbrev S10000 : Shape := ⟨1, ![10000]⟩
abbrev S10000x1 : Shape := ⟨2, ![10000, 1]⟩

abbrev nBuf : Space → Nat
  | .hbm => 77
  | .vmem => 6
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S2x128, .f32⟩
  | .hbm, ⟨3, _⟩ => ⟨S2, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000x128, .f32⟩
  | .hbm, ⟨53, _⟩ => ⟨S1700000x1, .f32⟩
  | .hbm, ⟨54, _⟩ => ⟨S1700000x128, .f32⟩
  | .hbm, ⟨55, _⟩ => ⟨S1700000x128, .f32⟩
  | .hbm, ⟨56, _⟩ => ⟨S_, .f32⟩
  | .hbm, ⟨57, _⟩ => ⟨S100000x128, .f32⟩
  | .hbm, ⟨58, _⟩ => ⟨S1700000x1, .i32⟩
  | .hbm, ⟨59, _⟩ => ⟨S100000x128, .f32⟩
  | .hbm, ⟨60, _⟩ => ⟨S_, .i32⟩
  | .hbm, ⟨61, _⟩ => ⟨S1700000, .i32⟩
  | .hbm, ⟨62, _⟩ => ⟨S1700000, .i1⟩
  | .hbm, ⟨63, _⟩ => ⟨S_, .i32⟩
  | .hbm, ⟨64, _⟩ => ⟨S1700000, .i32⟩
  | .hbm, ⟨65, _⟩ => ⟨S1700000, .i32⟩
  | .hbm, ⟨66, _⟩ => ⟨S1700000, .i32⟩
  | .hbm, ⟨67, _⟩ => ⟨S1700000x1, .i32⟩
  | .hbm, ⟨68, _⟩ => ⟨S1700000x128, .f32⟩
  | .hbm, ⟨69, _⟩ => ⟨S1700000x1, .f32⟩
  | .hbm, ⟨70, _⟩ => ⟨S1700000x128, .f32⟩
  | .hbm, ⟨71, _⟩ => ⟨S1700000x128, .f32⟩
  | .hbm, ⟨72, _⟩ => ⟨S_, .f32⟩
  | .hbm, ⟨73, _⟩ => ⟨S100000x128, .f32⟩
  | .hbm, ⟨74, _⟩ => ⟨S1700000x1, .i32⟩
  | .hbm, ⟨75, _⟩ => ⟨S100000x128, .f32⟩
  | .hbm, ⟨76, _⟩ => ⟨S100000x2, .f32⟩
  | .local _ .vmem, ⟨0, _⟩ => ⟨S10000x128, .f32⟩
  | .local _ .vmem, ⟨1, _⟩ => ⟨S10000x128, .f32⟩
  | .local _ .vmem, ⟨2, _⟩ => ⟨S2x128, .f32⟩
  | .local _ .vmem, ⟨3, _⟩ => ⟨S2, .f32⟩
  | .local _ .vmem, ⟨4, _⟩ => ⟨S10000x2, .f32⟩
  | .local _ .vmem, ⟨5, _⟩ => ⟨S10000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_c_9 : Ref sig .tc := ⟨.hbm, 60, rfl⟩
abbrev main_v43 : Ref sig .tc := ⟨.hbm, 61, rfl⟩
abbrev main_v44 : Ref sig .tc := ⟨.hbm, 62, rfl⟩
abbrev main_c_10 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_11 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S2x128_S2x128_0_0 : ∀ a, (![0, 0] : Fin 2 → Nat) a + S2x128.size a ≤ S2x128.size a
  h_S2x128 : 0 < S2x128.numel
  inb_S2_S2_0 : ∀ a, (![0] : Fin 1 → Nat) a + S2.size a ≤ S2.size a
  h_S2 : 0 < S2.numel
  shapeCasts_S2_S1x2 : S2.ShapeCasts S1x2
  broadcasts_S1x2_S10000x2 : S1x2.Broadcasts S10000x2
  reduces_S10000x2_S10000 : S10000x2.Reduces [1] S10000
  shapeCasts_S10000_S10000x1 : S10000.ShapeCasts S10000x1
  broadcasts_S10000x1_S10000x2 : S10000x1.Broadcasts S10000x2
  inb_S10000x2_S10000x2_0_0 : ∀ a, (![0, 0] : Fin 2 → Nat) a + S10000x2.size a ≤ S10000x2.size a
  h_S10000x2 : 0 < S10000x2.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S2x128_S10000x2_1_1_0_0_n_n_wf : DotDims.WF S10000x128 S2x128 S10000x2 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x128.size a ≤ S2x128.size a
  hwx0_1 : ∀ i : grid0.Coords, EltTy.bits .f32 = 32 ∨ (Rect.block (s := S2x128) S2x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2.size a ≤ S2.size a
  hwx0_2 : ∀ i : grid0.Coords, EltTy.bits .f32 = 32 ∨ (Rect.block (s := S2) S2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x2.size a ≤ S100000x2.size a
  hwx0_3 : ∀ i : grid0.Coords, EltTy.bits .f32 = 32 ∨ (Rect.block (s := S100000x2) S10000x2.size (cc0_transform_3 i) (hinb0_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S2x128_S10000x2_1_1_0_0_n_n : DotDims S10000x128 S2x128 S10000x2 where
  lhsContracting := [1]
  rhsContracting := [1]
  lhsNonContracting := [0]
  rhsNonContracting := [0]
  lhsBatch := []
  rhsBatch := []
  wf := dot_S10000x128_S2x128_S10000x2_1_1_0_0_n_n_wf

abbrev win0_0 : Pipeline.Window sig grid0 :=
  Pipeline.Window.ofSpec (Memref.whole main_v55) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S2.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v56) S10000x2.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S2x128 : Shape := ⟨2, ![2, 128]⟩
abbrev S2 : Shape := ⟨1, ![2]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S128x2 : Shape := ⟨2, ![128, 2]⟩
abbrev S100000x2 : Shape := ⟨2, ![100000, 2]⟩
abbrev S1x2 : Shape := ⟨2, ![1, 2]⟩
abbrev S100000x1 : Shape := ⟨2, ![100000, 1]⟩

abbrev nBuf : Space → Nat
  | .hbm => 96
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S2x128, .f32⟩
  | .hbm, ⟨3, _⟩ => ⟨S2, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000x128, .f32⟩
  | .hbm, ⟨53, _⟩ => ⟨S1700000x1, .f32⟩
  | .hbm, ⟨54, _⟩ => ⟨S1700000x128, .f32⟩
  | .hbm, ⟨55, _⟩ => ⟨S1700000x128, .f32⟩
  | .hbm, ⟨56, _⟩ => ⟨S_, .f32⟩
  | .hbm, ⟨57, _⟩ => ⟨S100000x128, .f32⟩
  | .hbm, ⟨58, _⟩ => ⟨S1700000x1, .i32⟩
  | .hbm, ⟨59, _⟩ => ⟨S100000x128, .f32⟩
  | .hbm, ⟨60, _⟩ => ⟨S_, .i32⟩
  | .hbm, ⟨61, _⟩ => ⟨S1700000, .i32⟩
  | .hbm, ⟨62, _⟩ => ⟨S1700000, .i1⟩
  | .hbm, ⟨63, _⟩ => ⟨S_, .i32⟩
  | .hbm, ⟨64, _⟩ => ⟨S1700000, .i32⟩
  | .hbm, ⟨65, _⟩ => ⟨S1700000, .i32⟩
  | .hbm, ⟨66, _⟩ => ⟨S1700000, .i32⟩
  | .hbm, ⟨67, _⟩ => ⟨S1700000x1, .i32⟩
  | .hbm, ⟨68, _⟩ => ⟨S1700000x128, .f32⟩
  | .hbm, ⟨69, _⟩ => ⟨S1700000x1, .f32⟩
  | .hbm, ⟨70, _⟩ => ⟨S1700000x128, .f32⟩
  | .hbm, ⟨71, _⟩ => ⟨S1700000x128, .f32⟩
  | .hbm, ⟨72, _⟩ => ⟨S_, .f32⟩
  | .hbm, ⟨73, _⟩ => ⟨S100000x128, .f32⟩
  | .hbm, ⟨74, _⟩ => ⟨S1700000x1, .i32⟩
  | .hbm, ⟨75, _⟩ => ⟨S100000x128, .f32⟩
  | .hbm, ⟨76, _⟩ => ⟨S128x2, .f32⟩
  | .hbm, ⟨77, _⟩ => ⟨S100000x2, .f32⟩
  | .hbm, ⟨78, _⟩ => ⟨S1x2, .f32⟩
  | .hbm, ⟨79, _⟩ => ⟨S100000x2, .f32⟩
  | .hbm, ⟨80, _⟩ => ⟨S100000x2, .f32⟩
  | .hbm, ⟨81, _⟩ => ⟨S_, .f32⟩
  | .hbm, ⟨82, _⟩ => ⟨S100000, .f32⟩
  | .hbm, ⟨83, _⟩ => ⟨S_, .f32⟩
  | .hbm, ⟨84, _⟩ => ⟨S100000, .f32⟩
  | .hbm, ⟨85, _⟩ => ⟨S100000, .f32⟩
  | .hbm, ⟨86, _⟩ => ⟨S100000x1, .f32⟩
  | .hbm, ⟨87, _⟩ => ⟨S100000x2, .f32⟩
  | .hbm, ⟨88, _⟩ => ⟨S100000x2, .f32⟩
  | .hbm, ⟨89, _⟩ => ⟨S100000x2, .f32⟩
  | .hbm, ⟨90, _⟩ => ⟨S_, .f32⟩
  | .hbm, ⟨91, _⟩ => ⟨S100000, .f32⟩
  | .hbm, ⟨92, _⟩ => ⟨S100000x1, .f32⟩
  | .hbm, ⟨93, _⟩ => ⟨S100000x1, .f32⟩
  | .hbm, ⟨94, _⟩ => ⟨S100000x2, .f32⟩
  | .hbm, ⟨95, _⟩ => ⟨S100000x2, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_c_9 : Ref sig .tc := ⟨.hbm, 60, rfl⟩
abbrev main_v43 : Ref sig .tc := ⟨.hbm, 61, rfl⟩
abbrev main_v44 : Ref sig .tc := ⟨.hbm, 62, rfl⟩
abbrev main_c_10 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_11 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_call1_cst : Ref sig .tc := ⟨.hbm, 81, rfl⟩
abbrev main_call1_v0 : Ref sig .tc := ⟨.hbm, 82, rfl⟩
abbrev main_call1_cst_0 : Ref sig .tc := ⟨.hbm, 83, rfl⟩
abbrev main_call1_v1 : Ref sig .tc := ⟨.hbm, 84, rfl⟩
abbrev main_call1_v2 : Ref sig .tc := ⟨.hbm, 85, rfl⟩
abbrev main_call1_v3 : Ref sig .tc := ⟨.hbm, 86, rfl⟩
abbrev main_call1_v4 : Ref sig .tc := ⟨.hbm, 87, rfl⟩
abbrev main_call1_v5 : Ref sig .tc := ⟨.hbm, 88, rfl⟩
abbrev main_call1_v6 : Ref sig .tc := ⟨.hbm, 89, rfl⟩
abbrev main_call1_cst_1 : Ref sig .tc := ⟨.hbm, 90, rfl⟩
abbrev main_call1_v7 : Ref sig .tc := ⟨.hbm, 91, rfl⟩
abbrev main_call1_v8 : Ref sig .tc := ⟨.hbm, 92, rfl⟩
abbrev main_call1_v9 : Ref sig .tc := ⟨.hbm, 93, rfl⟩
abbrev main_call1_v10 : Ref sig .tc := ⟨.hbm, 94, rfl⟩
abbrev main_v61 : Ref sig .tc := ⟨.hbm, 95, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  transposes_S2x128_S128x2_1_0 : S2x128.Transposes [1, 0] S128x2
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  h_S_ : 0 < S_.numel
  bcast_S100000_S100000x1_0 : S100000.BroadcastsInDim S100000x1 (![0] : Fin 1 → Fin S100000x1.rank)
  bcast_S100000x1_S100000x2_0_1 : S100000x1.BroadcastsInDim S100000x2 (![0, 1] : Fin 2 → Fin S100000x2.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x2_S100000x2_1_0_0_1_n_n_wf : DotDims.WF S100000x128 S128x2 S100000x2 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf

class Facts : Prop extends Facts₀ where

variable [Facts]
-- ==== Proof.LinearLogSoftmax.lean ====
/-
  The specification: a linear layer into two classes followed by a row-wise log-softmax, as one function of the
  arrays, index by index, on the extended reals.

  For a feature matrix `X` of `n` rows and 128 columns, a weight matrix `W` of 2 rows and 128 columns and a bias `b` of
  2 entries, the logit of row `r` for class `c` is `∑ₖ X(r,k)·W(c,k) + b(c)`. The row's shift is the larger of `-∞` and
  the running maximum, from `-∞`, of the row's two logits; the result at `(r, c)` is
  `(z c − shift) − log (∑ₖ exp (z k − shift))` over the row's logits `z`. The value `-∞` is kept as its f32 pattern: both
  sides of the comparison carry the same word, so it is never evaluated.
-/
import Idealize.ShloMosaic.PureOps.Ideal.Laws
import Idealize.ShloMosaic.Lib.ValueIdx

noncomputable section

namespace Idealize.ShloMosaic.LinearLogSoftmax

open Idealize.ShloMosaic Idealize.ShloMosaic.ValueIdx

/-- The f32 pattern of `-∞`, read on the extended reals. -/
abbrev negInf : EReal := Ideal.ofBits .f32 0xFF800000#32

/-- The logit of row `r` for class `c`: the row's dot product with the class's weights, plus the class's bias. -/
def logit {n : ℕ} (X : (⟨2, ![n, 128]⟩ : Shape).Idx → EReal) (W : (⟨2, ![2, 128]⟩ : Shape).Idx → EReal)
    (b : (⟨1, ![2]⟩ : Shape).Idx → EReal) (r : Fin n) (c : Fin 2) : EReal :=
  (∑ k : Fin 128, X (ix2 r k) * W (ix2 c k)) + b (ix1 c)

/-- The shift of a row of two logits: the larger of `-∞` and their running maximum from `-∞`. -/
def rowShift (z : Fin 2 → EReal) : EReal :=
  max negInf ((Finset.univ : Finset (Fin 2)).fold max negInf z)

/-- The log-softmax of a row of two logits at class `c`: the shifted logit minus the logarithm of the sum of the
    exponentials of the shifted logits. -/
def logSoftmax (z : Fin 2 → EReal) (c : Fin 2) : EReal :=
  (z c - rowShift z) - Ideal.log (∑ k : Fin 2, Ideal.exp (z k - rowShift z))

/-- The whole result array: at `(r, c)`, the log-softmax of row `r`'s logits at class `c`. -/
def head {n : ℕ} (X : (⟨2, ![n, 128]⟩ : Shape).Idx → EReal) (W : (⟨2, ![2, 128]⟩ : Shape).Idx → EReal)
    (b : (⟨1, ![2]⟩ : Shape).Idx → EReal) : (⟨2, ![n, 2]⟩ : Shape).Idx → EReal :=
  fun i => logSoftmax (logit X W b ⟨(i 0).val, idx2_lt0 i⟩) ⟨(i 1).val, idx2_lt1 i⟩

/-- The result array read at coordinates. -/
theorem head_ix2 {n : ℕ} (X : (⟨2, ![n, 128]⟩ : Shape).Idx → EReal) (W : (⟨2, ![2, 128]⟩ : Shape).Idx → EReal)
    (b : (⟨1, ![2]⟩ : Shape).Idx → EReal) (r : Fin n) (c : Fin 2) :
    head X W b (ix2 r c) = logSoftmax (logit X W b r) c := rfl

/-- The result at a row depends on `X` only through that row: two feature matrices that agree on a row (possibly at
    different row numbers) give the same logits there. -/
theorem logit_congr {n n' : ℕ} (X : (⟨2, ![n, 128]⟩ : Shape).Idx → EReal) (X' : (⟨2, ![n', 128]⟩ : Shape).Idx → EReal)
    (W : (⟨2, ![2, 128]⟩ : Shape).Idx → EReal) (b : (⟨1, ![2]⟩ : Shape).Idx → EReal) (r : Fin n) (r' : Fin n')
    (h : ∀ k : Fin 128, X (ix2 r k) = X' (ix2 r' k)) : logit X W b r = logit X' W b r' := by
  funext c
  unfold logit
  exact congrArg (· + b (ix1 c)) (Finset.sum_congr rfl fun k _ => by rw [h k])

end Idealize.ShloMosaic.LinearLogSoftmax

end
-- ==== Proof.LibKeepdims.lean ====
/-
  A row reduction kept as a column: the three layout steps of `max(x, axis=-1, keepdims=True)` and
  `sum(x, axis=-1, keepdims=True)` on a matrix, each read at coordinates.

  * a `vector.multi_reduction` of an `[a, b]` matrix over its second axis, at row `i`: the fold of `max` from the
    accumulator's value, or the sum, over the row's entries `(i, k)`;
  * an `[a]` vector cast to the column `[a, 1]`, at `(i, u)`: the vector at `i`;
  * an `[a, 1]` column broadcast to `[a, b]`, at `(i, j)`: the column at `(i, 0)`.
-/
import Idealize.ShloMosaic.PureOps.Ideal.Laws
import Idealize.ShloMosaic.Lib.ValueIdx
import Idealize.ShloMosaic.Lib.Pipeline.Value

noncomputable section

namespace Idealize.ShloMosaic.ValueKeepdims

open Idealize.ShloMosaic Idealize.ShloMosaic.ValueIdx

variable {α : Type}

/-- Row `i` with column `k` put back on the reduced second axis is `(i, k)`. -/
theorem lift_axis1_ix2 {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- A float `vector.multi_reduction <maximumf>` of an `[a, b]` matrix over its second axis, read on the extended reals at
    row `i`: the fold of `max`, from the accumulator's value, over the row's entries. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  have hf : (src ∘ h.lift (ix1 i)) = fun k : Fin b => src (ix2 i k) :=
    funext fun k => congrArg src (lift_axis1_ix2 h i k)
  exact congrArg (fun f => Finset.fold max (Ideal.ofBits φ acc) f (Finset.univ : Finset (Fin b))) hf

/-- A float `vector.multi_reduction <add>` of an `[a, b]` matrix over its second axis, read on the extended reals at row
    `i`: the sum of the row's entries. -/
theorem multiReduction_add_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (i : Fin a) :
    multiReduction .add [1] ⟨1, ![a]⟩ src acc h hφ hacc (ix1 i) = ∑ k : Fin b, src (ix2 i k) := by
  rw [Ideal.multiReduction_add_single]
  exact Finset.sum_congr rfl fun k _ => congrArg src (lift_axis1_ix2 h i k)

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column broadcast to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Idealize.ShloMosaic.ValueKeepdims

end
-- ==== Proof.KernelRows.lean ====
/-
  The kernel's body at one entry of its output block.

  On a block of 10000 rows the body forms the logits `z(r,c) = ∑ₖ x(r,k)·w(c,k) + b(c)` (a matrix product into the zero
  accumulator, the bias laid along every row), takes each row's running maximum from `-∞`, keeps the larger of that and
  `-∞`, subtracts it from the row, and subtracts from each shifted logit the logarithm of the row's sum of exponentials of
  the shifted logits. Read at `(r, c)` this is the log-softmax of row `r`'s two logits at class `c`.
-/
import proofs.«148854_j64561948393904_1_alg».proof.Proof.Gen.KernelIdeal.Skeleton
import proofs.«148854_j64561948393904_1_alg».proof.Proof.LinearLogSoftmax
import proofs.«148854_j64561948393904_1_alg».proof.Proof.LibKeepdims
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Rows

open Cert.KernelIdeal Cert.KernelIdeal.Gen Idealize.ShloMosaic Idealize.ShloMosaic.ValueIdx
  Idealize.ShloMosaic.ValueKeepdims Idealize.ShloMosaic.LinearLogSoftmax

/-! ## The matrix product at an entry -/

/-- The left operand's row coordinate is the output's row. -/
theorem lhs_row (i : S10000x2.Idx) (q : dot_S10000x128_S2x128_S10000x2_1_1_0_0_n_n.contr.Idx) :
    (dot_S10000x128_S2x128_S10000x2_1_1_0_0_n_n.lhsIdx i q 0).val = (i 0).val := by
  unfold DotDims.lhsIdx
  rw [dif_neg (show ¬(0 : Fin S10000x128.rank) ∈ dot_S10000x128_S2x128_S10000x2_1_1_0_0_n_n.lhsBatch by decide), dif_pos (show (0 : Fin S10000x128.rank) ∈ dot_S10000x128_S2x128_S10000x2_1_1_0_0_n_n.lhsNonContracting by decide)]
  rfl
/-- The left operand's column coordinate is the contracted index. -/
theorem lhs_col (i : S10000x2.Idx) (q : dot_S10000x128_S2x128_S10000x2_1_1_0_0_n_n.contr.Idx) :
    (dot_S10000x128_S2x128_S10000x2_1_1_0_0_n_n.lhsIdx i q 1).val = (q ⟨0, by decide⟩).val :=
  dot_S10000x128_S2x128_S10000x2_1_1_0_0_n_n.lhsIdx_val_of_single rfl i q
/-- The right operand's row coordinate is the output's column (the class). -/
theorem rhs_row (i : S10000x2.Idx) (q : dot_S10000x128_S2x128_S10000x2_1_1_0_0_n_n.contr.Idx) :
    (dot_S10000x128_S2x128_S10000x2_1_1_0_0_n_n.rhsIdx i q 0).val = (i 1).val := by
  unfold DotDims.rhsIdx
  rw [dif_neg (show ¬(0 : Fin S2x128.rank) ∈ dot_S10000x128_S2x128_S10000x2_1_1_0_0_n_n.rhsBatch by decide), dif_pos (show (0 : Fin S2x128.rank) ∈ dot_S10000x128_S2x128_S10000x2_1_1_0_0_n_n.rhsNonContracting by decide)]
  rfl
/-- The right operand's column coordinate is the contracted index. -/
theorem rhs_col (i : S10000x2.Idx) (q : dot_S10000x128_S2x128_S10000x2_1_1_0_0_n_n.contr.Idx) :
    (dot_S10000x128_S2x128_S10000x2_1_1_0_0_n_n.rhsIdx i q 1).val = (q ⟨0, by decide⟩).val :=
  dot_S10000x128_S2x128_S10000x2_1_1_0_0_n_n.rhsIdx_val_of_single rfl i q

/-- The product of a `[10000, 128]` block with a `[2, 128]` matrix, both contracted over their second axis, into the zero
    accumulator: at `(r, c)` the sum over `k` of `l(r,k)·w(c,k)`. -/
theorem matmul_at (l : FVec Ideal S10000x128 .f32) (w : FVec Ideal S2x128 .f32) (r : Fin 10000) (c : Fin 2) :
    matmul dot_S10000x128_S2x128_S10000x2_1_1_0_0_n_n (some .fp32) l w (constant S10000x2 .f32 0x00000000#32) (ix2 r c)
      = ∑ k : Fin 128, l (ix2 r k) * w (ix2 c k) := by
  refine (Ideal.matmul_constant_zero_apply dot_S10000x128_S2x128_S10000x2_1_1_0_0_n_n (some .fp32) l w (ix2 r c)).trans ?_
  rw [← Equiv.sum_comp (contrEquiv1 dot_S10000x128_S2x128_S10000x2_1_1_0_0_n_n 128 rfl rfl).symm]
  refine Finset.sum_congr rfl fun k _ => ?_
  have hk := contrEquiv1_symm_val dot_S10000x128_S2x128_S10000x2_1_1_0_0_n_n 128 rfl rfl k
  have el : dot_S10000x128_S2x128_S10000x2_1_1_0_0_n_n.lhsIdx (ix2 r c) ((contrEquiv1 dot_S10000x128_S2x128_S10000x2_1_1_0_0_n_n 128 rfl rfl).symm k) = ix2 r k := funext fun a => Fin.ext (by
    match a with
    | ⟨0, _⟩ => exact lhs_row _ _
    | ⟨1, _⟩ => exact (lhs_col _ _).trans hk)
  have er : dot_S10000x128_S2x128_S10000x2_1_1_0_0_n_n.rhsIdx (ix2 r c) ((contrEquiv1 dot_S10000x128_S2x128_S10000x2_1_1_0_0_n_n 128 rfl rfl).symm k) = ix2 c k := funext fun a => Fin.ext (by
    match a with
    | ⟨0, _⟩ => exact rhs_row _ _
    | ⟨1, _⟩ => exact (rhs_col _ _).trans hk)
  rw [el, er]

/-! ## The bias along every row -/

/-- The bias vector cast to one row and laid along every row: at `(r, c)` the bias of class `c`. -/
theorem bias_at (b : FVec Ideal S2 .f32) (r : Fin 10000) (c : Fin 2) :
    broadcastTo S10000x2 (shapeCast S1x2 b shapeCasts_S2_S1x2) broadcasts_S1x2_S10000x2 (ix2 r c) = b (ix1 c) :=
  (broadcastTo_1b_ab_apply (shapeCast S1x2 b shapeCasts_S2_S1x2) broadcasts_S1x2_S10000x2 r c).trans
    (shapeCast_a_1a_apply b shapeCasts_S2_S1x2 0 c)

/-! ## The body in named pieces -/

section Pieces

variable {F : FTy → Type} [FloatOps F]

/-- The block's logits. -/
def logitsVec (x : Vec F S10000x128 .f32) (w : Vec F S2x128 .f32) (b : Vec F S2 .f32) : FVec F S10000x2 .f32 :=
  have x' : FVec F S10000x128 .f32 := shapeCast S10000x128 x shapeCasts_S10000x128_S10000x128
  have zero : FVec F S10000x2 .f32 := constant S10000x2 .f32 0x00000000#32
  have prod : FVec F S10000x2 .f32 := matmul dot_S10000x128_S2x128_S10000x2_1_1_0_0_n_n (some .fp32) x' w zero
  have b1 : FVec F S1x2 .f32 := shapeCast S1x2 b shapeCasts_S2_S1x2
  have bs : FVec F S10000x2 .f32 := broadcastTo S10000x2 b1 broadcasts_S1x2_S10000x2
  addf prod bs

/-- Each row's shift: the larger of `-∞` and the row's running maximum from `-∞`. -/
def shiftVec (z : FVec F S10000x2 .f32) : FVec F S10000 .f32 :=
  have mx : FVec F S10000 .f32 := multiReduction .maximumf [1] S10000 z 0xFF800000#32 reduces_S10000x2_S10000 (.inl rfl) rfl
  have ninf : F .f32 := Scalar.ofBits .f32 0xFF800000#32
  have ninfs : FVec F S10000 .f32 := broadcast S10000 ninf
  maximumf ninfs mx

/-- The logits with each row's shift subtracted. -/
def shifted (z : FVec F S10000x2 .f32) : FVec F S10000x2 .f32 :=
  have col : FVec F S10000x1 .f32 := shapeCast S10000x1 (shiftVec z) shapeCasts_S10000_S10000x1
  have cols : FVec F S10000x2 .f32 := broadcastTo S10000x2 col broadcasts_S10000x1_S10000x2
  subf z cols

/-- The shifted logits minus the logarithm of each row's sum of their exponentials. -/
def tailVec (z : FVec F S10000x2 .f32) : FVec F S10000x2 .f32 :=
  have e : FVec F S10000x2 .f32 := exp (shifted z)
  have s : FVec F S10000 .f32 := multiReduction .add [1] S10000 e 0x00000000#32 reduces_S10000x2_S10000 (.inl rfl) rfl
  have scol : FVec F S10000x1 .f32 := shapeCast S10000x1 s shapeCasts_S10000_S10000x1
  have l : FVec F S10000x1 .f32 := log scol
  have ls : FVec F S10000x2 .f32 := broadcastTo S10000x2 l broadcasts_S10000x1_S10000x2
  subf (shifted z) ls

/-- The body's stored value is these pieces composed. -/
theorem pay_eq (x : Vec F S10000x128 .f32) (w : Vec F S2x128 .f32) (b : Vec F S2 .f32) :
    k0_pay1 x w b = tailVec (logitsVec x w b) := rfl

end Pieces

/-! ## Each piece at an entry -/

/-- The logits at `(r, c)`. -/
theorem logitsVec_at (x : Vec Ideal S10000x128 .f32) (w : Vec Ideal S2x128 .f32) (b : Vec Ideal S2 .f32) (r : Fin 10000) (c : Fin 2) :
    logitsVec x w b (ix2 r c) = logit x w b r c := by
  unfold logit
  show matmul dot_S10000x128_S2x128_S10000x2_1_1_0_0_n_n (some .fp32) (shapeCast S10000x128 x shapeCasts_S10000x128_S10000x128 : FVec Ideal S10000x128 .f32) w
        (constant S10000x2 .f32 0x00000000#32) (ix2 r c)
      + broadcastTo S10000x2 (shapeCast S1x2 b shapeCasts_S2_S1x2 : FVec Ideal S1x2 .f32) broadcasts_S1x2_S10000x2 (ix2 r c) = _
  rw [shapeCast_self, matmul_at, bias_at]

/-- The shift of row `r`. -/
theorem shiftVec_at (z : FVec Ideal S10000x2 .f32) (r : Fin 10000) :
    shiftVec z (ix1 r) = rowShift (fun k => z (ix2 r k)) :=
  congrArg (max negInf)
    (multiReduction_maximumf_row z 0xFF800000#32 reduces_S10000x2_S10000 (.inl rfl) rfl r)

/-- The shifted logit at `(r, c)`. -/
theorem shifted_at (z : FVec Ideal S10000x2 .f32) (r : Fin 10000) (c : Fin 2) :
    shifted z (ix2 r c) = z (ix2 r c) - rowShift (fun k => z (ix2 r k)) := by
  show z (ix2 r c) - broadcastTo S10000x2 (shapeCast S10000x1 (shiftVec z) shapeCasts_S10000_S10000x1) broadcasts_S10000x1_S10000x2 (ix2 r c) = _
  rw [broadcastTo_a1_ab_apply, shapeCast_a_a1_apply, shiftVec_at]

/-- The body's value at `(r, c)` is the log-softmax of row `r`'s logits at class `c`. -/
theorem tailVec_at (z : FVec Ideal S10000x2 .f32) (r : Fin 10000) (c : Fin 2) :
    tailVec z (ix2 r c) = logSoftmax (fun k => z (ix2 r k)) c := by
  unfold logSoftmax
  show shifted z (ix2 r c)
      - broadcastTo S10000x2
          (log (shapeCast S10000x1
            (multiReduction .add [1] S10000 (exp (shifted z)) 0x00000000#32 reduces_S10000x2_S10000 (.inl rfl) rfl)
            shapeCasts_S10000_S10000x1))
          broadcasts_S10000x1_S10000x2 (ix2 r c) = _
  rw [broadcastTo_a1_ab_apply]
  show shifted z (ix2 r c)
      - Ideal.log (shapeCast S10000x1
            (multiReduction .add [1] S10000 (exp (shifted z)) 0x00000000#32 reduces_S10000x2_S10000 (.inl rfl) rfl)
            shapeCasts_S10000_S10000x1 (ix2 r (0 : Fin 1))) = _
  rw [shapeCast_a_a1_apply,
    multiReduction_add_row (exp (shifted z)) 0x00000000#32 reduces_S10000x2_S10000 (.inl rfl) rfl r, shifted_at]
  refine congrArg (fun s => (z (ix2 r c) - rowShift fun k => z (ix2 r k)) - Ideal.log s) (Finset.sum_congr rfl fun k _ => ?_)
  show Ideal.exp (shifted z (ix2 r k)) = _
  rw [shifted_at]

/-- The body's stored block at `(r, c)`: the log-softmax of the logits of row `r` of the block. -/
theorem pay_at (x : Vec Ideal S10000x128 .f32) (w : Vec Ideal S2x128 .f32) (b : Vec Ideal S2 .f32) (r : Fin 10000) (c : Fin 2) :
    k0_pay1 (F := Ideal) x w b (ix2 r c) = logSoftmax (logit x w b r) c := by
  rw [pay_eq, tailVec_at]
  exact congrArg (fun z => logSoftmax z c) (funext fun k => logitsVec_at x w b r k)

end Cert.KernelIdeal.Rows

end
-- ==== Proof.KernelWhole.lean ====
/-
  From the blocks to the whole result array.

  The grid has ten points; at point `t` the features window holds rows `10000·t … 10000·t + 9999` of the propagated
  feature matrix, the weights and bias windows hold those arrays whole, and the output window is written back to rows
  `10000·t … 10000·t + 9999` of the result. Entry `(r, c)` of the body's block at point `t` is the log-softmax of the logits of
  row `10000·t + r` of the whole feature matrix, so each written block is a block of one function of the whole arrays,
  and the ten blocks cover the result's 100000 rows.
-/
import proofs.«148854_j64561948393904_1_alg».proof.Proof.Gen.KernelIdeal.Value
import proofs.«148854_j64561948393904_1_alg».proof.Proof.KernelRows
import Idealize.ShloMosaic.Lib.Pipeline.Value

noncomputable section

namespace Cert.KernelIdeal.Whole

open Cert.KernelIdeal Cert.KernelIdeal.Gen Idealize.ShloMosaic Idealize.ShloMosaic.TcCoe Idealize.SL.Sem
  Idealize.ShloMosaic.ValueIdx Idealize.ShloMosaic.LinearLogSoftmax
open Idealize.ShloMosaic.Pipeline (Dat)

variable (m : (ℓ : Loc nD τ sig) → Buf (Elt Ideal) ℓ) (ρ : Dev nD → PrngReg)

theorem origin2 : (![0, 0] : Fin 2 → Nat) = fun _ => 0 := funext fun a => by fin_cases a <;> rfl
theorem origin1 : (![0] : Fin 1 → Nat) = fun _ => 0 := funext fun a => by fin_cases a <;> rfl

/-- Where each window sits at grid point `t`: the features and the result at block row `t`, the weights and the bias
    at their one block. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- The whole result: the log-softmax of the logits of the feature matrix, the weights and the bias as the region
    finds them. -/
def result (c : Dev nD) : S100000x2.Idx → EReal :=
  head (V m c main_v55 : S100000x128.Idx → EReal) (V m c main_arg2 : S2x128.Idx → EReal) (V m c main_arg3 : S2.Idx → EReal)

/-! ## The input windows' blocks

  Each block read holds for an arbitrary array of the window's shape; it is then taken at the array the region
  finds. -/

/-- Window 0's block at point `t` of any `[100000, 128]` array is its rows `10000·t …`. -/
theorem rows_read (A : S100000x128.Idx → EReal) (t : Fin cfg0.N) (y : S10000x128.Idx) (k : S100000x128.Idx)
    (hk0 : (k 0).val = 10000 * t.val + (y 0).val) (hk1 : (k 1).val = (y 1).val) :
    ((cfg0.win 0).blk t).view.read (Elt Ideal) A y = A k := by
  obtain ⟨e0, e1, -⟩ := index_facts t
  rw [View.read_apply]
  show A (((cfg0.win 0).blk t).view.emb y) = A k
  refine congrArg A (funext fun a => Fin.ext ?_)
  match a with
  | ⟨0, _⟩ => show win0_0.index t (0 : Fin 2) * 10000 + 1 * (y 0).val = (k 0).val; rw [e0, hk0]; omega
  | ⟨1, _⟩ => show win0_0.index t (1 : Fin 2) * 128 + 1 * (y 1).val = (k 1).val; rw [e1, hk1]; omega

/-- Window 1's block at every point of any `[2, 128]` array is the array. -/
theorem whole_read2 (A : S2x128.Idx → EReal) (t : Fin cfg0.N) :
    ((cfg0.win 1).blk t).view.read (Elt Ideal) A = A := by
  obtain ⟨-, -, e0, e1, -⟩ := index_facts t
  funext y
  rw [View.read_apply]
  show A (((cfg0.win 1).blk t).view.emb y) = A y
  refine congrArg A (funext fun a => Fin.ext ?_)
  match a with
  | ⟨0, _⟩ => show win0_1.index t (0 : Fin 2) * 2 + 1 * (y 0).val = (y 0).val; rw [e0]; omega
  | ⟨1, _⟩ => show win0_1.index t (1 : Fin 2) * 128 + 1 * (y 1).val = (y 1).val; rw [e1]; omega

/-- Window 2's block at every point of any `[2]` array is the array. -/
theorem whole_read1 (A : S2.Idx → EReal) (t : Fin cfg0.N) :
    ((cfg0.win 2).blk t).view.read (Elt Ideal) A = A := by
  obtain ⟨-, -, -, -, e0, -⟩ := index_facts t
  funext y
  rw [View.read_apply]
  show A (((cfg0.win 2).blk t).view.emb y) = A y
  refine congrArg A (funext fun a => Fin.ext ?_)
  match a with
  | ⟨0, _⟩ => show win0_2.index t (0 : Fin 1) * 2 + 1 * (y 0).val = (y 0).val; rw [e0]; omega

/-- The arrays the three input windows stage are the propagated feature matrix, the weights and the bias. -/
theorem staged0 (c : Dev nD) : (V m c (Pipeline.arrRef spec0 0) : S100000x128.Idx → EReal) = (V m c main_v55 : S100000x128.Idx → EReal) := rfl
theorem staged1 (c : Dev nD) : (V m c (Pipeline.arrRef spec0 1) : S2x128.Idx → EReal) = (V m c main_arg2 : S2x128.Idx → EReal) := rfl
theorem staged2 (c : Dev nD) : (V m c (Pipeline.arrRef spec0 2) : S2.Idx → EReal) = (V m c main_arg3 : S2.Idx → EReal) := rfl

/-- The features window's block at point `t` is rows `10000·t …` of the feature matrix. -/
theorem features_block (c : Dev nD) (t : Fin cfg0.N) (y : S10000x128.Idx) (k : S100000x128.Idx)
    (hk0 : (k 0).val = 10000 * t.val + (y 0).val) (hk1 : (k 1).val = (y 1).val) :
    (iblk m c 0 t : Vec Ideal S10000x128 .f32) y = (V m c main_v55 : S100000x128.Idx → EReal) k :=
  (rows_read (V m c (Pipeline.arrRef spec0 0)) t y k hk0 hk1).trans (congrFun (staged0 m c) k)

/-- The weights window's block at every point is the weight matrix. -/
theorem weights_block (c : Dev nD) (t : Fin cfg0.N) :
    (iblk m c 1 t : Vec Ideal S2x128 .f32) = (V m c main_arg2 : S2x128.Idx → EReal) :=
  (whole_read2 (V m c (Pipeline.arrRef spec0 1)) t).trans (staged1 m c)

/-- The bias window's block at every point is the bias vector. -/
theorem bias_block (c : Dev nD) (t : Fin cfg0.N) :
    (iblk m c 2 t : Vec Ideal S2 .f32) = (V m c main_arg3 : S2.Idx → EReal) :=
  (whole_read1 (V m c (Pipeline.arrRef spec0 2)) t).trans (staged2 m c)

/-- One entry of the body's block, for any block of rows `10000·q …` of a feature matrix `X`: the whole result of
    `X` at the corresponding row. -/
theorem block_entry (X : S100000x128.Idx → EReal) (W : S2x128.Idx → EReal) (B : S2.Idx → EReal)
    (x : Vec Ideal S10000x128 .f32) (w : Vec Ideal S2x128 .f32) (b : Vec Ideal S2 .f32) (q : ℕ)
    (hx : ∀ (y : S10000x128.Idx) (k : S100000x128.Idx), (k 0).val = 10000 * q + (y 0).val → (k 1).val = (y 1).val → x y = X k)
    (hw : w = W) (hb : b = B)
    (j : S10000x2.Idx) (i : S100000x2.Idx) (hi0 : (i 0).val = 10000 * q + (j 0).val) (hi1 : (i 1).val = (j 1).val) :
    k0_pay1 (F := Ideal) x w b j = head X W B i := by
  subst hw hb
  obtain ⟨r, cl, rfl⟩ : ∃ (r : Fin 10000) (cl : Fin 2), j = ix2 r cl := ⟨j 0, j 1, eq_ix2 j⟩
  obtain ⟨R, cl', rfl⟩ : ∃ (R : Fin 100000) (cl' : Fin 2), i = ix2 R cl' := ⟨i 0, i 1, eq_ix2 i⟩
  have hR : R.val = 10000 * q + r.val := hi0
  obtain rfl : cl' = cl := Fin.ext hi1
  rw [Rows.pay_at, head_ix2]
  exact congrArg (fun z => logSoftmax z cl')
    (logit_congr x X w b r R fun k => hx (ix2 r k) (ix2 R k) hR rfl)

/-- The body's output buffer for any three input blocks, cut to the output window's block, is the stored value. -/
theorem written_block (t : Fin cfg0.N) (x : Vec Ideal S10000x128 .f32) (w : Vec Ideal S2x128 .f32) (b : Vec Ideal S2 .f32) :
    (cfg0.win 3).cut (grid0.coords t) (out0_3 x w b) = k0_pay1 (F := Ideal) x w b := by
  unfold out0_3
  rw [View.canon_unit_zero origin2]
  simp only [View.ld_unit_zero (S := S10000x128) origin2, View.ld_unit_zero (S := S2x128) origin2,
    View.ld_unit_zero (S := S2) origin1]
  rfl

/-- The output window's block at point `t` of any `[100000, 2]` array: entry `j` is the array at rows `10000·t …`. -/
theorem result_read (R : S100000x2.Idx → EReal) (t : Fin cfg0.N) (j : S10000x2.Idx) (i : S100000x2.Idx)
    (hi0 : (i 0).val = 10000 * t.val + (j 0).val) (hi1 : (i 1).val = (j 1).val) :
    ((cfg0.win 3).blk t).view.read (Elt Ideal) R j = R i := by
  obtain ⟨-, -, -, -, -, e0, e1⟩ := index_facts t
  rw [View.read_apply]
  show R (((cfg0.win 3).blk t).view.emb j) = R i
  refine congrArg R (funext fun a => Fin.ext ?_)
  match a with
  | ⟨0, _⟩ => show win0_3.index t (0 : Fin 2) * 10000 + 1 * (j 0).val = (i 0).val; rw [e0, hi0]; omega
  | ⟨1, _⟩ => show win0_3.index t (1 : Fin 2) * 2 + 1 * (j 1).val = (i 1).val; rw [e1, hi1]; omega

/-- What point `t` writes back is block `t` of the whole result. -/
theorem flushed_eq (c : Dev nD) (t : Fin cfg0.N) :
    (dats m 0 c).flushed 3 t = ((cfg0.win 3).blk t).view.read (Elt Ideal) (result m c) := by
  refine (Cert.KernelIdeal.Value.flushed3 m c t).trans ?_
  refine (written_block t (iblk m c 0 t) (iblk m c 1 t) (iblk m c 2 t)).trans ?_
  funext j
  have ht : t.val < 10 := lt_of_lt_of_eq t.isLt N_0
  have hj : (j 0).val < 10000 := (j 0).isLt
  have hj1 : (j 1).val < 2 := (j 1).isLt
  let i : S100000x2.Idx := ix2 ⟨10000 * t.val + (j 0).val, by omega⟩ ⟨(j 1).val, hj1⟩
  refine Eq.trans ?_ (result_read (result m c) t j i rfl rfl).symm
  exact block_entry (V m c main_v55 : S100000x128.Idx → EReal) (V m c main_arg2 : S2x128.Idx → EReal)
    (V m c main_arg3 : S2.Idx → EReal) (iblk m c 0 t : Vec Ideal S10000x128 .f32) (iblk m c 1 t : Vec Ideal S2x128 .f32)
    (iblk m c 2 t : Vec Ideal S2 .f32) t.val (fun y k h0 h1 => features_block m c t y k h0 h1)
    (weights_block m c t) (bias_block m c t) j i rfl rfl

/-- An index of the result lies in point `t`'s block iff each coordinate is in the block's range on its axis. -/
theorem mem_block (t : Fin cfg0.N) (i : S100000x2.Idx) :
    i ∈ ((cfg0.win 3).blk t).view.set ↔ ∀ a : Fin 2, win0_3.index t a * S10000x2.size a ≤ (i a).val ∧ (i a).val < win0_3.index t a * S10000x2.size a + S10000x2.size a := by
  show i ∈ ((View.whole main_v56).slice (win0_3.rect t)).set ↔ _
  rw [View.set_slice_whole, Rect.mem_set_unit]
  exact Iff.rfl

/-- Every index of the result lies in the block of the point `row / 10000`. -/
theorem covered (i : S100000x2.Idx) :
    ∃ t : Fin cfg0.N, (cfg0.win 3).flush t = true ∧ i ∈ ((cfg0.win 3).blk t).view.set := by
  have hi0 : (i 0).val < 100000 := (i 0).isLt
  have hi1 : (i 1).val < 2 := (i 1).isLt
  have hN : grid0.N = 10 := N_0
  let t : Fin cfg0.N := ⟨(i 0).val / 10000, by show (i 0).val / 10000 < grid0.N; rw [hN]; omega⟩
  obtain ⟨-, -, -, -, -, e0, e1⟩ := index_facts t
  have ht : t.val = (i 0).val / 10000 := rfl
  refine ⟨t, flush0_3 t, ?_⟩
  rw [mem_block]
  intro a
  match a with
  | ⟨0, _⟩ =>
    show win0_3.index t (0 : Fin 2) * 10000 ≤ (i 0).val ∧ (i 0).val < win0_3.index t (0 : Fin 2) * 10000 + 10000
    rw [e0, ht]; omega
  | ⟨1, _⟩ =>
    show win0_3.index t (1 : Fin 2) * 2 ≤ (i 1).val ∧ (i 1).val < win0_3.index t (1 : Fin 2) * 2 + 2
    rw [e1]; omega

/-- So after the run the result array is the whole result. -/
theorem final (c : Dev nD) : (dats m 0 c).arrAt 3 cfg0.N = result m c :=
  (dats m 0 c).arrAt_eq_of_cover 3 (result m c) (fun t _ => flushed_eq m c t) covered

end Cert.KernelIdeal.Whole

end
-- ==== Proof.FeaturesAgree.lean ====
/-
  The propagated feature matrix is one value in both programs.

  Before its region the kernel's program computes, on the host, the degree of every node with self-loops, the
  normalisation `rsqrt(deg)` (zero where the degree is not positive), the edge weights, and two hops of
  gather–scale–scatter-add of the feature matrix: the same operations, with the same literals, that the reference
  applies before its linear layer. What the region finds in the features window's array is therefore the reference's
  stage for that value, as a function of the feature matrix and the edge list: the two are one term, operation by
  operation.

  The host operations come in three stretches, and the value is read stretch by stretch: the first stretch gives the
  two endpoint lists with the self-loops appended, the degree test and the normalisation; the second selects the
  normalisation where the degree is positive; the third, over those as given values, is the two hops.
-/
import proofs.«148854_j64561948393904_1_alg».proof.Proof.Gen.KernelIdeal.Frame
import proofs.«148854_j64561948393904_1_alg».proof.Proof.RefRead
import Idealize.ShloMosaic.Lib.StableHlo.Run
import Idealize.ShloMosaic.Lib.StableHlo.RunLoop

noncomputable section

namespace Cert.Propagated

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (c : Dev nD)

/-- The buffers as the region finds them: the three stretches of host operations applied in order. -/
theorem V_stretches (b : Ref sig .tc) :
    V m c b = after hostOps0_2 (after hostOps0_1 (after hostOps0 (fun b => m (c, b)))) (Proc.devRef .tc b) :=
  congrFun (afterL_eq_after_flatten [hostOps0, hostOps0_1, hostOps0_2] (fun b => m (c, b))).symm (Proc.devRef .tc b)

/-! ## The first stretch: endpoint lists, degree test, normalisation -/

section First

theorem first_v3 : after hostOps0 (fun b => m (c, b)) (Proc.devRef .tc main_v3) = Cert.ReferenceIdeal.ReadP.val_main_v3 (F := Ideal) (m ((c.tc : Thread nD τ).loc main_arg1)) := by
  after_results_simp; rfl
theorem first_v6 : after hostOps0 (fun b => m (c, b)) (Proc.devRef .tc main_v6) = Cert.ReferenceIdeal.ReadP.val_main_v6 (F := Ideal) (m ((c.tc : Thread nD τ).loc main_arg1)) := by
  after_results_simp; rfl
theorem first_v12 : after hostOps0 (fun b => m (c, b)) (Proc.devRef .tc main_v12) = Cert.ReferenceIdeal.ReadP.val_main_v12 (F := Ideal) (m ((c.tc : Thread nD τ).loc main_arg1)) := by
  after_results_simp; rfl
theorem first_v13 : after hostOps0 (fun b => m (c, b)) (Proc.devRef .tc main_v13) = Cert.ReferenceIdeal.ReadP.val_main_v13 (F := Ideal) (m ((c.tc : Thread nD τ).loc main_arg1)) := by
  after_results_simp; rfl
theorem first_cst2 : after hostOps0 (fun b => m (c, b)) (Proc.devRef .tc main_cst_2) = Cert.ReferenceIdeal.ReadP.val_main_cst_2 (F := Ideal) := by
  after_results_simp; rfl
theorem first_arg0 : after hostOps0 (fun b => m (c, b)) (Proc.devRef .tc main_arg0) = (m ((c.tc : Thread nD τ).loc main_arg0)) := by
  after_results_simp

end First

/-! ## The second stretch: the normalisation kept where the degree is positive -/

section Second

variable (F1 : Valuation τ sig (Elt Ideal))

/-- Over any contents: the second stretch writes the selected normalisation from the degree test, the normalisation
    and the zero constant. -/
theorem second_v14 (t12 : (⟨S100000, .i1⟩ : BufTy).Contents (Elt Ideal)) (t13 : (⟨S100000, .f32⟩ : BufTy).Contents (Elt Ideal))
    (tz : (⟨S_, .f32⟩ : BufTy).Contents (Elt Ideal))
    (h12 : F1 (Proc.devRef .tc main_v12) = t12) (h13 : F1 (Proc.devRef .tc main_v13) = t13) (hz : F1 (Proc.devRef .tc main_cst_2) = tz) :
    after hostOps0_1 F1 (Proc.devRef .tc main_v14) = select t12 t13 (broadcastInDim S100000 ![] bcast_S_S100000 tz) := by
  after_results_simp
  simp only [TRef.toBuf, TRef.ofBuf, cast_cast, cast_eq]
  rw [h12, h13, hz]
  rfl

theorem second_v3 : after hostOps0_1 F1 (Proc.devRef .tc main_v3) = F1 (Proc.devRef .tc main_v3) := by
  after_results_simp
theorem second_v6 : after hostOps0_1 F1 (Proc.devRef .tc main_v6) = F1 (Proc.devRef .tc main_v6) := by
  after_results_simp
theorem second_arg0 : after hostOps0_1 F1 (Proc.devRef .tc main_arg0) = F1 (Proc.devRef .tc main_arg0) := by
  after_results_simp

end Second

/-! ## The third stretch: the edge weights and the two hops, over given endpoint lists and normalisation -/

section Third

set_option maxHeartbeats 4000000 in
/-- Over any contents whose endpoint lists, selected normalisation and feature matrix are the reference's stages, the
    third stretch leaves the reference's propagated feature matrix. -/
theorem third_v55 (F2 : Valuation τ sig (Elt Ideal))
    (x0 : (⟨S100000x128, .f32⟩ : BufTy).Contents (Elt Ideal)) (x1 : (⟨S2x1600000, .i32⟩ : BufTy).Contents (Elt Ideal))
    (h3 : F2 (Proc.devRef .tc main_v3) = Cert.ReferenceIdeal.ReadP.val_main_v3 (F := Ideal) x1)
    (h6 : F2 (Proc.devRef .tc main_v6) = Cert.ReferenceIdeal.ReadP.val_main_v6 (F := Ideal) x1)
    (h14 : F2 (Proc.devRef .tc main_v14) = Cert.ReferenceIdeal.ReadP.val_main_v14 (F := Ideal) x1)
    (h0 : F2 (Proc.devRef .tc main_arg0) = x0) :
    after hostOps0_2 F2 (Proc.devRef .tc main_v55) = Cert.ReferenceIdeal.ReadP.val_main_v55 (F := Ideal) x0 x1 := by
  after_results_simp
  rw [h3, h6, h14, h0]
  rfl

end Third

/-! ## The three stretches together -/

/-- The array the features window stages, as the region finds it, is the reference's propagated feature matrix of the
    kernel program's own feature matrix and edge list. -/
theorem features_eq :
    (V m c main_v55 : S100000x128.Idx → EReal)
      = Cert.ReferenceIdeal.ReadP.val_main_v55 (F := Ideal) (m ((c.tc : Thread nD τ).loc main_arg0)) (m ((c.tc : Thread nD τ).loc main_arg1)) := by
  refine (V_stretches m c main_v55).trans ?_
  exact third_v55 (after hostOps0_1 (after hostOps0 (fun b => m (c, b)))) (m ((c.tc : Thread nD τ).loc main_arg0)) (m ((c.tc : Thread nD τ).loc main_arg1))
    ((second_v3 _).trans (first_v3 m c))
    ((second_v6 _).trans (first_v6 m c))
    ((second_v14 _ _ _ _ (first_v12 m c) (first_v13 m c) (first_cst2 m c)).trans (by rfl))
    ((second_arg0 _).trans (first_arg0 m c))

end Cert.Propagated

end
-- ==== Proof.ReferenceRows.lean ====
/-
  The reference at one entry of its result.

  The reference forms the same logits from the propagated feature matrix `P`, the transposed weights and the bias:
  `z(r,c) = ∑ₖ P(r,k)·W(c,k) + b(c)` (the product with the transpose of `W` reads `W` at `(c, k)`), then the row-wise
  log-softmax: each row's running maximum from `-∞`, the larger of that and `-∞`, the shifted logits, and each shifted logit
  minus the logarithm of `0` plus the row's sum of exponentials of the shifted logits. Read at `(r, c)` this is the
  log-softmax of row `r`'s two logits at class `c`. The propagated feature matrix is carried as one value and never opened.
-/
import proofs.«148854_j64561948393904_1_alg».proof.Proof.RefRead
import proofs.«148854_j64561948393904_1_alg».proof.Proof.LinearLogSoftmax
import proofs.«148854_j64561948393904_1_alg».proof.Proof.LibKeepdims
import Idealize.ShloMosaic.Lib.ValueIdx
import Idealize.ShloMosaic.PureOps.Ideal.Laws

noncomputable section

namespace Cert.ReferenceIdeal.Rows

open Cert.ReferenceIdeal Cert.ReferenceIdeal.Gen Cert.ReferenceIdeal.ReadP Idealize.ShloMosaic Idealize.ShloMosaic.ValueIdx
  Idealize.ShloMosaic.ValueKeepdims Idealize.ShloMosaic.LinearLogSoftmax

variable (x0 : (⟨S100000x128, .f32⟩ : BufTy).Contents (Elt Ideal)) (x1 : (⟨S2x1600000, .i32⟩ : BufTy).Contents (Elt Ideal))
  (x2 : (⟨S2x128, .f32⟩ : BufTy).Contents (Elt Ideal)) (x3 : (⟨S2, .f32⟩ : BufTy).Contents (Elt Ideal))

/-! ## The logits -/

/-- The reference's logits at `(r, c)`, over the propagated feature matrix. -/
theorem logits_at (r : Fin 100000) (c : Fin 2) :
    val_main_v60 (F := Ideal) x0 x1 x2 x3 (ix2 r c)
      = logit (val_main_v55 (F := Ideal) x0 x1 : S100000x128.Idx → EReal) (x2 : S2x128.Idx → EReal) (x3 : S2.Idx → EReal) r c := by
  have el : ∀ k : Fin 128, lidx_main_v57 (ix2 r c) k = ix2 r k := fun k =>
    funext fun a => Fin.ext (by match a with | ⟨0, _⟩ => rfl | ⟨1, _⟩ => rfl)
  have er : ∀ k : Fin 128, idx_main_v56 (ridx_main_v57 (ix2 r c) k) = ix2 c k := fun k =>
    funext fun a => Fin.ext (by match a with | ⟨0, _⟩ => rfl | ⟨1, _⟩ => rfl)
  have eb : idx_main_v58 (idx_main_v59 (ix2 r c)) = ix1 c :=
    funext fun a => Fin.ext (by match a with | ⟨0, _⟩ => rfl)
  rw [val_main_v60_apply, val_main_v57_apply, val_main_v59_apply, val_main_v58_apply, eb]
  unfold logit
  refine congrArg (· + x3 (ix1 c)) (Finset.sum_congr rfl fun k _ => ?_)
  rw [val_main_v56_apply, el, er]

/-! ## The row maximum, which the stage-by-stage reading leaves whole -/

/-- The host's maximum over the second axis of a `[100000, 2]` array from `-∞`, at row `r`: the running maximum of the
    row's two entries from `-∞`. -/
theorem rowmax_at (z : S100000x2.Idx → EReal) (r : Fin 100000) :
    Host.reduce (FloatOps.maximumf (F := Ideal) (φ := .f32)) z (constant (F := Ideal) S_ .f32 0xFF800000#32)
        reducesTo_S100000x2_S100000_d1 h_S_ (ix1 r)
      = (Finset.univ : Finset (Fin 2)).fold max negInf (fun k => z (ix2 r k)) := by
  have h : S100000x2.Reduces [1] S100000 := by decide
  rw [Host.reduce_eq_fold_single (FloatOps.maximumf (F := Ideal) (φ := .f32)) z _ reducesTo_S100000x2_S100000_d1 h h_S_ (ix1 r)]
  have hf : (z ∘ h.lift (ix1 r)) = fun k : Fin 2 => z (ix2 r k) :=
    funext fun k => congrArg z (lift_axis1_ix2 h r k)
  exact congrArg (fun f => Finset.fold max negInf f (Finset.univ : Finset (Fin 2))) hf

/-! ## The log-softmax -/

/-- The shift of row `r`. -/
theorem shift_at (r : Fin 100000) :
    val_main_call1_v2 (F := Ideal) x0 x1 x2 x3 (ix1 r)
      = rowShift (fun k => val_main_v60 (F := Ideal) x0 x1 x2 x3 (ix2 r k)) := by
  rw [val_main_call1_v2_apply, val_main_call1_v1_apply, val_main_call1_cst_0_apply]
  unfold val_main_call1_v0 val_main_call1_cst rowShift
  exact congrArg (max negInf) (rowmax_at (val_main_v60 (F := Ideal) x0 x1 x2 x3) r)

/-- The shifted logit at `(r, c)`. -/
theorem shifted_at (r : Fin 100000) (c : Fin 2) :
    val_main_call1_v5 (F := Ideal) x0 x1 x2 x3 (ix2 r c)
      = val_main_v60 (F := Ideal) x0 x1 x2 x3 (ix2 r c) - rowShift (fun k => val_main_v60 (F := Ideal) x0 x1 x2 x3 (ix2 r k)) := by
  have e : idx_main_call1_v3 (idx_main_call1_v4 (ix2 r c)) = ix1 r :=
    funext fun a => Fin.ext (by match a with | ⟨0, _⟩ => rfl)
  rw [val_main_call1_v5_apply, val_main_call1_v4_apply, val_main_call1_v3_apply, e, shift_at]
  rfl

/-- The reference's result at `(r, c)`: the log-softmax of row `r`'s logits at class `c`. -/
theorem result_at (r : Fin 100000) (c : Fin 2) :
    val_main_v61 (F := Ideal) x0 x1 x2 x3 (ix2 r c)
      = logSoftmax (fun k => val_main_v60 (F := Ideal) x0 x1 x2 x3 (ix2 r k)) c := by
  have e : idx_main_call1_v8 (idx_main_call1_v10 (ix2 r c)) = ix1 r :=
    funext fun a => Fin.ext (by match a with | ⟨0, _⟩ => rfl)
  have e7 : ∀ k : Fin 2, idx_main_call1_v7 (ix1 r) k = ix2 r k := fun k =>
    funext fun a => Fin.ext (by match a with | ⟨0, _⟩ => rfl | ⟨1, _⟩ => rfl)
  rw [val_main_v61_apply, val_main_call1_v10_apply, val_main_call1_v9_apply, val_main_call1_v8_apply, e,
    val_main_call1_v7_apply, val_main_call1_cst_1_apply, shifted_at,
    Ideal.subf_def, Ideal.hostUnary_log_def, Ideal.ofBits_def, Ideal.ofBits_zero_f32, zero_add]
  unfold logSoftmax
  refine congrArg (fun s => (val_main_v60 (F := Ideal) x0 x1 x2 x3 (ix2 r c) - rowShift fun k => val_main_v60 (F := Ideal) x0 x1 x2 x3 (ix2 r k)) - Ideal.log s)
    (Finset.sum_congr rfl fun k _ => ?_)
  rw [e7, val_main_call1_v6_apply, shifted_at, Ideal.hostUnary_exp_def]

/-- The reference's whole result is the specification's, over the propagated feature matrix. -/
theorem result_eq :
    (val_main_v61 (F := Ideal) x0 x1 x2 x3 : S100000x2.Idx → EReal)
      = head (val_main_v55 (F := Ideal) x0 x1 : S100000x128.Idx → EReal) (x2 : S2x128.Idx → EReal) (x3 : S2.Idx → EReal) := by
  funext i
  obtain ⟨r, c, rfl⟩ : ∃ (r : Fin 100000) (c : Fin 2), i = ix2 r c := ⟨i 0, i 1, eq_ix2 i⟩
  rw [result_at, head_ix2]
  exact congrArg (fun z => logSoftmax z c) (funext fun k => logits_at x0 x1 x2 x3 r k)

end Cert.ReferenceIdeal.Rows

end
-- ==== Proof.lean ====
/-
  The certificate of a two-hop graph propagation followed by a linear layer into two classes and a row-wise log-softmax.

  Both programs first compute, on the host and by the same operations, the propagated feature matrix `P` (node degrees
  with self-loops, `rsqrt` normalisation, two hops of gather, scale and scatter-add). The kernel then takes `P` in ten
  blocks of 10000 rows: on each block it forms the logits `z(r,c) = ∑ₖ P(r,k)·W(c,k) + b(c)` by a matrix product into the
  zero accumulator, and the row-wise log-softmax `(z − s) − log ∑ exp (z − s)` with `s` the larger of `-∞` and the row's
  running maximum from `-∞`. The reference forms the same logits from the transposed weights by one whole product, and
  the same log-softmax over all 100000 rows.

  On the extended reals the two results are the same function of `P`, the weights and the bias, entry by entry: a
  product into the zero accumulator is the plain sum of products, the transposed product reads `W` at `(c, k)`, the sum
  from `0` is the sum, and every other step is the same operation on the same values. No law that could fail at an
  infinity is used, so the finiteness of the inputs is not needed for the values; the frames hold for every input.
  The idealisation rewrote nothing, so the kernel's idealised program is its own text read on the extended reals.
-/
import proofs.«148854_j64561948393904_1_alg».proof.Defs
import proofs.«148854_j64561948393904_1_alg».proof.Proof.Gen.Kernel
import proofs.«148854_j64561948393904_1_alg».proof.Proof.Gen.Kernel.Skeleton
import proofs.«148854_j64561948393904_1_alg».proof.Proof.Gen.Kernel.Launch
import proofs.«148854_j64561948393904_1_alg».proof.Proof.Gen.Kernel.Points
import proofs.«148854_j64561948393904_1_alg».proof.Proof.Gen.Kernel.Frame
import proofs.«148854_j64561948393904_1_alg».proof.Proof.Gen.KernelIdeal
import proofs.«148854_j64561948393904_1_alg».proof.Proof.Gen.KernelIdeal.Skeleton
import proofs.«148854_j64561948393904_1_alg».proof.Proof.Gen.KernelIdeal.Launch
import proofs.«148854_j64561948393904_1_alg».proof.Proof.Gen.KernelIdeal.Points
import proofs.«148854_j64561948393904_1_alg».proof.Proof.Gen.KernelIdeal.Frame
import proofs.«148854_j64561948393904_1_alg».proof.Proof.Gen.ReferenceIdeal
import proofs.«148854_j64561948393904_1_alg».proof.Proof.Gen.Pre_finite_inputs
import proofs.«148854_j64561948393904_1_alg».proof.Proof.Gen.KernelIdeal.Value
import proofs.«148854_j64561948393904_1_alg».proof.Proof.RefRun
import proofs.«148854_j64561948393904_1_alg».proof.Proof.RefRead
import proofs.«148854_j64561948393904_1_alg».proof.Proof.LinearLogSoftmax
import proofs.«148854_j64561948393904_1_alg».proof.Proof.KernelWhole
import proofs.«148854_j64561948393904_1_alg».proof.Proof.FeaturesAgree
import proofs.«148854_j64561948393904_1_alg».proof.Proof.ReferenceRows
import Idealize.ShloMosaic.Adequacy
import Idealize.ShloMosaic.Init

noncomputable section

namespace Cert.Proof

open Idealize.ShloMosaic Idealize.ShloMosaic.TcCoe Idealize.SL.Sem Idealize.ShloMosaic.LinearLogSoftmax

/-- The specification's result depends only on its three arrays. -/
theorem head_congr {n : ℕ} {X X' : (⟨2, ![n, 128]⟩ : Shape).Idx → EReal} {W W' : (⟨2, ![2, 128]⟩ : Shape).Idx → EReal}
    {B B' : (⟨1, ![2]⟩ : Shape).Idx → EReal} (hX : X = X') (hW : W = W') (hB : B = B') :
    head X W B = head X' W' B' := by
  subst hX hW hB; rfl

/-- The kernel's program runs and leaves its arguments as they were. -/
theorem frame_kernel : Cert.frame_Kernel := fun m ρ _ => Cert.Kernel.Gen.frame m ρ

/-- So does its idealised program. -/
theorem frame_kernelIdeal : Cert.frame_KernelIdeal := fun m ρ _ => Cert.KernelIdeal.Gen.frame m ρ

/-- The reference runs and leaves its arguments as they were: its run, with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealisation rewrote no operation. -/
theorem preserves : Cert.preserves_Kernel_KernelIdeal := trivial

/-- Both programs end with the log-softmax of the logits of the propagated feature matrix, the weights and the bias. -/
theorem algebraic : Cert.algebraic_KernelIdeal_ReferenceIdeal := by
  intro m ρ m' ρ' _ hagree
  refine ⟨fun c => head
      (Cert.ReferenceIdeal.ReadP.val_main_v55 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1)) : Cert.KernelIdeal.S100000x128.Idx → EReal)
      (m ((c.tc : Thread Cert.KernelIdeal.nD Cert.KernelIdeal.τ).loc Cert.KernelIdeal.main_arg2) : Cert.KernelIdeal.S2x128.Idx → EReal)
      (m ((c.tc : Thread Cert.KernelIdeal.nD Cert.KernelIdeal.τ).loc Cert.KernelIdeal.main_arg3) : Cert.KernelIdeal.S2.Idx → EReal), ?_, ?_⟩
  · refine (θ_run Cert.KernelIdeal.defs _ _).mono (fun r h c => ⟨(h c).1.trans ?_, (h c).2⟩)
      (Cert.KernelIdeal.Value.run_blocks (F := Ideal) m ρ)
    exact (Cert.KernelIdeal.Whole.final m c).trans
      (head_congr (Cert.Propagated.features_eq m c) (Cert.KernelIdeal.Gen.V_main_arg2 m c) (Cert.KernelIdeal.Gen.V_main_arg3 m c))
  · refine (θ_run Cert.ReferenceIdeal.defs _ _).mono (fun _ h c => ⟨(h c).1.trans ?_, (h c).2⟩)
      (Cert.ReferenceIdeal.ValueP.run (F := Ideal) m' ρ')
    refine (Cert.ReferenceIdeal.ReadP.val_main_v61_eq m' c).trans ?_
    refine (Cert.ReferenceIdeal.Rows.result_eq _ _ _ _).trans ?_
    rw [(hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
